-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32000 : Shape := ⟨2, ![4096, 32000]⟩
abbrev S4096 : Shape := ⟨1, ![4096]⟩
abbrev S_ : Shape := ⟨0, ![]⟩

class Facts : Prop where
  bcast_S_S4096x32000 : S_.BroadcastsInDim S4096x32000 (![] : Fin 0 → Fin S4096x32000.rank)
  reducesTo_S4096x32000_S_d0_1 : S4096x32000.ReducesTo [0, 1] S_
  h_S_ : 0 < S_.numel

variable [Facts]

def fn {F : FTy → Type} [FloatOps F] (main_arg0 : FVec F S4096x32000 .f32) (main_arg1 : IVec S4096 32) : IVec S_ 1 :=
  let main_v0 : FVec F S4096x32000 .f32 := Host.absf main_arg0
  let main_cst : FVec F S_ .f32 := constant S_ .f32 0x7F800000#32
  let main_v1 : FVec F S4096x32000 .f32 := broadcastInDim S4096x32000 ![] bcast_S_S4096x32000 main_cst
  let main_v2 : IVec S4096x32000 1 := cmpf .olt main_v0 main_v1
  let main_c : IVec S_ 1 := constantI S_ 1 1#1
  let main_v3 : IVec S_ 1 := (fun x v => Host.reduce IntOp.andi x v reducesTo_S4096x32000_S_d0_1 h_S_) main_v2 main_c
  main_v3
-- ==== Kernel.lean ====
abbrev S4096x32000 : Shape := ⟨2, ![4096, 32000]⟩
abbrev S4096 : Shape := ⟨1, ![4096]⟩
abbrev S4096x1 : Shape := ⟨2, ![4096, 1]⟩
abbrev S512x6400 : Shape := ⟨2, ![512, 6400]⟩
abbrev S512x1 : Shape := ⟨2, ![512, 1]⟩
abbrev S512 : Shape := ⟨1, ![512]⟩
abbrev S_ : Shape := ⟨0, ![]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 47
  | .vmem => 5
  | .smem => 0
  | _ => 0

abbrev bufTy : (tb : Table) → Fin (tcTables nBuf tb) → BufTy
  | .hbm, ⟨0, _⟩ => ⟨S4096x32000, .f32⟩
  | .hbm, ⟨1, _⟩ => ⟨S4096, .i32⟩
  | .hbm, ⟨2, _⟩ => ⟨S4096x1, .f32⟩
  | .hbm, ⟨3, _⟩ => ⟨S_, .i32⟩
  | .hbm, ⟨4, _⟩ => ⟨S4096, .i32⟩
  | .hbm, ⟨5, _⟩ => ⟨S4096, .i1⟩
  | .hbm, ⟨6, _⟩ => ⟨S4096, .f32⟩
  | .hbm, ⟨7, _⟩ => ⟨S4096, .f32⟩
  | .hbm, ⟨8, _⟩ => ⟨S4096, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4096x1, .i32⟩
  | .hbm, ⟨13, _⟩ => ⟨S_, .i32⟩
  | .hbm, ⟨14, _⟩ => ⟨S4096x1, .i32⟩
  | .hbm, ⟨15, _⟩ => ⟨S4096x1, .i1⟩
  | .hbm, ⟨16, _⟩ => ⟨S_, .i32⟩
  | .hbm, ⟨17, _⟩ => ⟨S4096x1, .i32⟩
  | .hbm, ⟨18, _⟩ => ⟨S4096x1, .i32⟩
  | .hbm, ⟨19, _⟩ => ⟨S4096x1, .i32⟩
  | .hbm, ⟨20, _⟩ => ⟨S4096x1x1, .i32⟩
  | .hbm, ⟨21, _⟩ => ⟨S1, .i32⟩
  | .hbm, ⟨22, _⟩ => ⟨S_, .i32⟩
  | .hbm, ⟨23, _⟩ => ⟨S4096x1x1, .i32⟩
  | .hbm, ⟨24, _⟩ => ⟨S4096x1x1, .i1⟩
  | .hbm, ⟨25, _⟩ => ⟨S1x1x1, .i32⟩
  | .hbm, ⟨26, _⟩ => ⟨S4096x1x1, .i32⟩
  | .hbm, ⟨27, _⟩ => ⟨S4096x1x1, .i1⟩
  | .hbm, ⟨28, _⟩ => ⟨S4096x1x1, .i1⟩
  | .hbm, ⟨29, _⟩ => ⟨S_, .i1⟩
  | .hbm, ⟨30, _⟩ => ⟨S4096x1, .i1⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096, .f32⟩
  | .hbm, ⟨36, _⟩ => ⟨S4096, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .local _ .vmem, ⟨0, _⟩ => ⟨S512x6400, .f32⟩
  | .local _ .vmem, ⟨1, _⟩ => ⟨S512x6400, .f32⟩
  | .local _ .vmem, ⟨2, _⟩ => ⟨S512x1, .f32⟩
  | .local _ .vmem, ⟨3, _⟩ => ⟨S512x1, .f32⟩
  | .local _ .vmem, ⟨4, _⟩ => ⟨S512x1, .f32⟩
  | _, _ => ⟨S4096x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_cst : Ref sig .tc := ⟨.hbm, 32, rfl⟩
abbrev main_call0_v14 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_cst_0 : Ref sig .tc := ⟨.hbm, 37, rfl⟩
abbrev main_v12 : Ref sig .tc := ⟨.hbm, 38, rfl⟩
abbrev main_v13 : Ref sig .tc := ⟨.hbm, 39, rfl⟩
abbrev main_cst_1 : Ref sig .tc := ⟨.hbm, 40, rfl⟩
abbrev main_v14 : Ref sig .tc := ⟨.hbm, 41, rfl⟩
abbrev main_cst_2 : Ref sig .tc := ⟨.hbm, 42, rfl⟩
abbrev main_v15 : Ref sig .tc := ⟨.hbm, 43, rfl⟩
abbrev main_cst_3 : Ref sig .tc := ⟨.hbm, 44, rfl⟩
abbrev main_v16 : Ref sig .tc := ⟨.hbm, 45, rfl⟩
abbrev main_v17 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 5], ![false, false]⟩

def k0_cond2 (i : grid0.Coords) : BitVec 1 :=
  let arg1 : BitVec 32 := BitVec.ofNat 32 (i 1).val
  let c4_i32 : BitVec 32 := 4#32
  let v11 : BitVec 1 := Scalar.cmpi .eq arg1 c4_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x6400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x6400_S512x6400_0_0 : ∀ a, (![0, 0] : Fin 2 → Nat) a + S512x6400.size a ≤ S512x6400.size a
  h_S512x6400 : 0 < S512x6400.numel
  reduces_S512x6400_S512 : S512x6400.Reduces [1] S512
  shapeCasts_S512_S512x1 : S512.ShapeCasts S512x1
  bcast_S_S4096 : S_.BroadcastsInDim S4096 (![] : Fin 0 → Fin S4096.rank)
  shapeCasts_S4096x1_S4096 : S4096x1.ShapeCasts S4096
  reducesTo_S4096_S_d0 : S4096.ReducesTo [0] S_
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  gather_S4096x32000_S4096x1x1_S4096x1_n_1_0_0_1_2_11_wf : GatherDims.WF S4096x32000 S4096x1x1 S4096x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x6400.size a ≤ S4096x32000.size a
  hwx0_0 : ∀ i : grid0.Coords, EltTy.bits .f32 = 32 ∨ (Rect.block (s := S4096x32000) S512x6400.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S4096x1.size a
  hwx0_1 : ∀ i : grid0.Coords, EltTy.bits .f32 = 32 ∨ (Rect.block (s := S4096x1) S512x1.size (cc0_transform_1 i) (hinb0_1 i)).WholeWords (EltTy.packing .f32)

variable [Facts₀]

def gather_S4096x32000_S4096x1x1_S4096x1_n_1_0_0_1_2_11 : GatherDims S4096x32000 S4096x1x1 S4096x1 where
  offsetDims := []
  collapsedSliceDims := [1]
  operandBatchingDims := [0]
  startIndicesBatchingDims := [0]
  startIndexMap := [1]
  indexVectorDim := 2
  sliceSizes := ![1, 1]
  wf := gather_S4096x32000_S4096x1x1_S4096x1_n_1_0_0_1_2_11_wf

abbrev win0_0 : Pipeline.Window sig grid0 :=
  Pipeline.Window.ofSpec (Memref.whole main_arg0) S512x6400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S4096x32000 : Shape := ⟨2, ![4096, 32000]⟩
abbrev S4096 : Shape := ⟨1, ![4096]⟩
abbrev S_ : Shape := ⟨0, ![]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 47
  | .vmem => 0
  | .smem => 0
  | _ => 0

abbrev bufTy : (tb : Table) → Fin (tcTables nBuf tb) → BufTy
  | .hbm, ⟨0, _⟩ => ⟨S4096x32000, .f32⟩
  | .hbm, ⟨1, _⟩ => ⟨S4096, .i32⟩
  | .hbm, ⟨2, _⟩ => ⟨S_, .i32⟩
  | .hbm, ⟨3, _⟩ => ⟨S4096, .i32⟩
  | .hbm, ⟨4, _⟩ => ⟨S4096, .i1⟩
  | .hbm, ⟨5, _⟩ => ⟨S4096, .f32⟩
  | .hbm, ⟨6, _⟩ => ⟨S4096x1, .f32⟩
  | .hbm, ⟨7, _⟩ => ⟨S4096x32000, .f32⟩
  | .hbm, ⟨8, _⟩ => ⟨S4096x32000, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4096x1, .i32⟩
  | .hbm, ⟨13, _⟩ => ⟨S_, .i32⟩
  | .hbm, ⟨14, _⟩ => ⟨S4096x1, .i32⟩
  | .hbm, ⟨15, _⟩ => ⟨S4096x1, .i1⟩
  | .hbm, ⟨16, _⟩ => ⟨S_, .i32⟩
  | .hbm, ⟨17, _⟩ => ⟨S4096x1, .i32⟩
  | .hbm, ⟨18, _⟩ => ⟨S4096x1, .i32⟩
  | .hbm, ⟨19, _⟩ => ⟨S4096x1, .i32⟩
  | .hbm, ⟨20, _⟩ => ⟨S4096x1x1, .i32⟩
  | .hbm, ⟨21, _⟩ => ⟨S1, .i32⟩
  | .hbm, ⟨22, _⟩ => ⟨S_, .i32⟩
  | .hbm, ⟨23, _⟩ => ⟨S4096x1x1, .i32⟩
  | .hbm, ⟨24, _⟩ => ⟨S4096x1x1, .i1⟩
  | .hbm, ⟨25, _⟩ => ⟨S1x1x1, .i32⟩
  | .hbm, ⟨26, _⟩ => ⟨S4096x1x1, .i32⟩
  | .hbm, ⟨27, _⟩ => ⟨S4096x1x1, .i1⟩
  | .hbm, ⟨28, _⟩ => ⟨S4096x1x1, .i1⟩
  | .hbm, ⟨29, _⟩ => ⟨S_, .i1⟩
  | .hbm, ⟨30, _⟩ => ⟨S4096x1, .i1⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096, .f32⟩
  | .hbm, ⟨36, _⟩ => ⟨S4096, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S4096x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_cst : Ref sig .tc := ⟨.hbm, 32, rfl⟩
abbrev main_call0_v14 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_cst_0 : Ref sig .tc := ⟨.hbm, 37, rfl⟩
abbrev main_v12 : Ref sig .tc := ⟨.hbm, 38, rfl⟩
abbrev main_v13 : Ref sig .tc := ⟨.hbm, 39, rfl⟩
abbrev main_cst_1 : Ref sig .tc := ⟨.hbm, 40, rfl⟩
abbrev main_v14 : Ref sig .tc := ⟨.hbm, 41, rfl⟩
abbrev main_cst_2 : Ref sig .tc := ⟨.hbm, 42, rfl⟩
abbrev main_v15 : Ref sig .tc := ⟨.hbm, 43, rfl⟩
abbrev main_cst_3 : Ref sig .tc := ⟨.hbm, 44, rfl⟩
abbrev main_v16 : Ref sig .tc := ⟨.hbm, 45, rfl⟩
abbrev main_v17 : Ref sig .tc := ⟨.hbm, 46, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x32000_0_1 : S4096x1.BroadcastsInDim S4096x32000 (![0, 1] : Fin 2 → Fin S4096x32000.rank)
  reducesTo_S4096x32000_S_d0_1 : S4096x32000.ReducesTo [0, 1] S_
  h_S_ : 0 < S_.numel
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  shapeCasts_S4096x1_S4096 : S4096x1.ShapeCasts S4096
  reducesTo_S4096_S_d0 : S4096.ReducesTo [0] S_
  gather_S4096x32000_S4096x1x1_S4096x1_n_1_0_0_1_2_11_wf : GatherDims.WF S4096x32000 S4096x1x1 S4096x1 [] [1] [0] [1] [0] 2 ![1, 1]

variable [Facts₀]

def gather_S4096x32000_S4096x1x1_S4096x1_n_1_0_0_1_2_11 : GatherDims S4096x32000 S4096x1x1 S4096x1 where
  offsetDims := []
  collapsedSliceDims := [1]
  operandBatchingDims := [0]
  startIndicesBatchingDims := [0]
  startIndexMap := [1]
  indexVectorDim := 2
  sliceSizes := ![1, 1]
  wf := gather_S4096x32000_S4096x1x1_S4096x1_n_1_0_0_1_2_11_wf

class Facts : Prop extends Facts₀ where

variable [Facts]
-- ==== Proof.Pieces.lean ====
/-
  What one run of the kernel body leaves behind, in each of its three control cases, as values.

  The body keeps a column accumulator [512, 1] in scratch memory. At the first column tile of a row block it first stores
  the zero column there; at every tile it reads the accumulator and the tile [512, 6400] back, and stores the accumulator
  plus the tile's row sums; at the last column tile it also copies the accumulator into the output block. Each lemma
  below reads the stores of one case back: what the scratch (and, in the last case, the output block) holds afterwards
  is ONE application of the body's arithmetic to what was there before and to the tile.
-/
import proofs.«182032_j755914244560_2_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.SL.Sem Idealize.ShloMosaic.Tactic
open Cert.KernelIdeal Cert.KernelIdeal.Gen

variable {F : FTy → Type} [FloatOps F]

theorem hz : (![0, 0] : Fin 2 → Nat) = fun _ => 0 := funext fun a => by fin_cases a <;> rfl

/-- A middle tile: the scratch held `acc`; it ends holding the body's arithmetic of `acc` and the tile. -/
theorem scratch_mid (c : Dev nD) (i : grid0.Coords) (a2 : Memref sig .tc .vmem S512x6400 .f32) (h2 : a2.IsWhole)
    (a3 : Memref sig .tc .vmem S512x1 .f32) (h3 : a3.IsWhole) (a4 : Memref sig .tc .vmem S512x1 .f32) (h4 : a4.IsWhole)
    (hc0 : ¬cond0_0 i) (hc1 : ¬cond0_1 i) (tile : Vec F S512x6400 .f32) (acc : Vec F S512x1 .f32) :
    sout0_B_0 c i a2 h2 a3 h3 a4 h4 hc0 hc1 tile acc = k0_pay2 acc tile := by
  unfold sout0_B_0
  rw [View.read_writes_eq_canon _ _ _ (scover0_B_0 c i a2 h2 a3 h3 a4 h4 hc0 hc1 tile acc)]
  unfold kernelRun0_B
  dsimp only
  rw [View.canon_unit_zero hz]
  simp only [View.readAt_eq_ld, h4.read_unread, h2.read_unread, View.ld_unit_zero (S := S512x1) hz,
    View.ld_unit_zero (S := S512x6400) hz]

/-- The last tile: the scratch ends as at a middle tile; -/
theorem scratch_last (c : Dev nD) (i : grid0.Coords) (a2 : Memref sig .tc .vmem S512x6400 .f32) (h2 : a2.IsWhole)
    (a3 : Memref sig .tc .vmem S512x1 .f32) (h3 : a3.IsWhole) (a4 : Memref sig .tc .vmem S512x1 .f32) (h4 : a4.IsWhole)
    (hc0 : ¬cond0_0 i) (hc1 : cond0_1 i) (tile : Vec F S512x6400 .f32) (acc : Vec F S512x1 .f32) :
    sout0_C_0 c i a2 h2 a3 h3 a4 h4 hc0 hc1 tile acc = k0_pay2 acc tile := by
  unfold sout0_C_0
  rw [View.read_writes_eq_canon _ _ _ (scover0_C_0 c i a2 h2 a3 h3 a4 h4 hc0 hc1 tile acc)]
  unfold kernelRun0_C
  dsimp only
  sl_unfold_words
  rw [View.canon_unit_zero hz]
  simp only [View.readAt_eq_ld, h4.read_unread, h2.read_unread, View.ld_unit_zero (S := S512x1) hz,
    View.ld_unit_zero (S := S512x6400) hz]

/-- and the output block is the copy of it. -/
theorem out_last (c : Dev nD) (i : grid0.Coords) (a2 : Memref sig .tc .vmem S512x6400 .f32) (h2 : a2.IsWhole)
    (a3 : Memref sig .tc .vmem S512x1 .f32) (h3 : a3.IsWhole) (a4 : Memref sig .tc .vmem S512x1 .f32) (h4 : a4.IsWhole)
    (hc0 : ¬cond0_0 i) (hc1 : cond0_1 i) (tile : Vec F S512x6400 .f32) (acc : Vec F S512x1 .f32) :
    out0_C_1 c i a2 h2 a3 h3 a4 h4 hc0 hc1 tile acc = k0_pay2 acc tile := by
  unfold out0_C_1
  rw [View.read_writes_eq_canon _ _ _ (cover0_C_1 c i a2 h2 a3 h3 a4 h4 hc0 hc1 tile acc)]
  unfold kernelRun0_C
  dsimp only
  sl_unfold_words
  rw [View.canon_unit_zero hz, View.readCov_unit_zero (S := S512x1) _ hz]
  simp only [View.readAt_eq_ld, h4.read_unread, h2.read_unread, View.ld_unit_zero (S := S512x1) hz,
    View.ld_unit_zero (S := S512x6400) hz]

/-- The first tile: whatever the scratch held, it ends holding the body's arithmetic of the zero column and the tile. -/
theorem scratch_first (c : Dev nD) (i : grid0.Coords) (a2 : Memref sig .tc .vmem S512x6400 .f32) (h2 : a2.IsWhole)
    (a3 : Memref sig .tc .vmem S512x1 .f32) (h3 : a3.IsWhole) (a4 : Memref sig .tc .vmem S512x1 .f32) (h4 : a4.IsWhole)
    (hc0 : cond0_0 i) (hc1 : ¬cond0_1 i) (tile : Vec F S512x6400 .f32) :
    sout0_A_0 c i a2 h2 a3 h3 a4 h4 hc0 hc1 tile = k0_pay2 (k0_pay1 (F := F)) tile := by
  unfold sout0_A_0
  rw [View.read_writes_eq_canon _ _ _ (scover0_A_0 c i a2 h2 a3 h3 a4 h4 hc0 hc1 tile)]
  unfold kernelRun0_A
  dsimp only
  sl_unfold_words
  rw [View.canon_cons_unit_zero (S := S512x1) hz, View.readCov_unit_zero (S := S512x1) _ hz]
  simp only [View.readAt_eq_ld, h2.read_unread, View.ld_unit_zero (S := S512x6400) hz]

end Cert.KernelIdeal.Pieces

end
-- ==== Proof.Steps.lean ====
/-
  One grid point of the accumulation, in terms of the point before.

  The grid has 8 × 5 points, row blocks outermost; point `t` works on row block `t / 5` and column tile `t % 5`. After
  the first tile of a row block the scratch accumulator holds the body's arithmetic of the zero column and the tile; after
  every other tile, of what the point before left and the tile; and after the last tile the output block holds what the
  scratch holds.
-/
import proofs.«182032_j755914244560_2_alg».proof.Proof.Pieces

set_option maxRecDepth 16384

noncomputable section

namespace Cert.KernelIdeal.Steps

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- After the first tile of a row block: the zero column accumulated with the tile. -/
theorem scratch_first (c : Dev nD) (t : Fin cfg0.N) (h0 : t.val % 5 = 0) :
    (outsAt0 m c t.val t.isLt).2 = k0_pay2 (k0_pay1 (F := F)) (iblk m c 0 t) :=
  have h1 : ¬t.val % 5 = 4 := by omega
  (congrArg Prod.snd (outsAt0_A m c t h0 h1)).trans
    (Pieces.scratch_first c (grid0.coords t) (ms0_0 t) (hs0_0 t) (ms0_1 t) (hs0_1 t) scM0_0 (Memref.isWhole_whole _)
      ((hcond0_0 t).mpr h0) (fun h => h1 ((hcond0_1 t).mp h)) (iblk m c 0 t))

/-- After any other tile: what the point before left, accumulated with the tile. -/
theorem scratch_next (c : Dev nD) (t : Fin cfg0.N) (h0 : ¬t.val % 5 = 0) :
    (outsAt0 m c t.val t.isLt).2
      = k0_pay2 (outsAt0 m c (t.val - 1) (Nat.lt_of_le_of_lt (Nat.sub_le _ _) t.isLt)).2 (iblk m c 0 t) := by
  by_cases h1 : t.val % 5 = 4
  · exact (congrArg Prod.snd (outsAt0_C m c t h0 h1)).trans
      (Pieces.scratch_last c (grid0.coords t) (ms0_0 t) (hs0_0 t) (ms0_1 t) (hs0_1 t) scM0_0 (Memref.isWhole_whole _)
        (fun h => h0 ((hcond0_0 t).mp h)) ((hcond0_1 t).mpr h1) (iblk m c 0 t)
        (outsAt0 m c (t.val - 1) (Nat.lt_of_le_of_lt (Nat.sub_le _ _) t.isLt)).2)
  · exact (congrArg Prod.snd (outsAt0_B m c t h0 h1)).trans
      (Pieces.scratch_mid c (grid0.coords t) (ms0_0 t) (hs0_0 t) (ms0_1 t) (hs0_1 t) scM0_0 (Memref.isWhole_whole _)
        (fun h => h0 ((hcond0_0 t).mp h)) (fun h => h1 ((hcond0_1 t).mp h)) (iblk m c 0 t)
        (outsAt0 m c (t.val - 1) (Nat.lt_of_le_of_lt (Nat.sub_le _ _) t.isLt)).2)

/-- After the last tile of a row block the output block is the scratch. -/
theorem out_last (c : Dev nD) (t : Fin cfg0.N) (h1 : t.val % 5 = 4) :
    (outsAt0 m c t.val t.isLt).1 = (outsAt0 m c t.val t.isLt).2 :=
  have h0 : ¬t.val % 5 = 0 := by omega
  ((congrArg Prod.fst (outsAt0_C m c t h0 h1)).trans
    (Pieces.out_last c (grid0.coords t) (ms0_0 t) (hs0_0 t) (ms0_1 t) (hs0_1 t) scM0_0 (Memref.isWhole_whole _)
      (fun h => h0 ((hcond0_0 t).mp h)) ((hcond0_1 t).mpr h1) (iblk m c 0 t)
      (outsAt0 m c (t.val - 1) (Nat.lt_of_le_of_lt (Nat.sub_le _ _) t.isLt)).2)).trans
    (scratch_next m c t h0).symm

end Cert.KernelIdeal.Steps

end
-- ==== Proof.LibColumn.lean ====
/-
  Two layout operations of a "keep the reduced axis" column, read at an index given by its coordinates.

  A row-wise reduction with the reduced axis kept produces a column of shape [a, 1]: a vector [a] re-laid as [a, 1],
  later spread over [a, b]. Both are re-indexings: the re-laid column at (i, 0) is the vector at i, and the spread column
  at (i, j) is the column at (i, 0).
-/
import Idealize.ShloMosaic.Lib.Pipeline.Value
import Idealize.ShloMosaic.Lib.ValueIdx

namespace Cert.LibColumn

open Idealize.ShloMosaic Idealize.ShloMosaic.ValueIdx

variable {α : Type}

/-- A vector `[a]` re-laid as a column `[a, 1]` reads, at `(i, 0)`, the vector at `i`: the row-major position is the same. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColumn
-- ==== Proof.Payload.lean ====
/-
  The body's arithmetic at the ideal values, read entry by entry.

  Over the extended reals the accumulate step is: entry `(r, 0)` of the new accumulator column is the old entry plus the
  sum of row `r` of the tile over its 6400 columns (a lane reduction from the zero word is exactly that sum; re-laying
  the 512 sums as a column [512, 1] moves nothing), and the reset column is zero everywhere.
-/
import proofs.«182032_j755914244560_2_alg».proof.Proof.Gen.KernelIdeal.Skeleton
import proofs.«182032_j755914244560_2_alg».proof.Proof.LibColumn
import Idealize.ShloMosaic.Lib.Pipeline.Value
import Idealize.ShloMosaic.Lib.ValueIdx
import Idealize.ShloMosaic.PureOps.Ideal.Laws

noncomputable section

namespace Cert.KernelIdeal.Payload

open Idealize.ShloMosaic Idealize.ShloMosaic.ValueIdx
open Cert.KernelIdeal Cert.KernelIdeal.Gen

/-- The lane reduction of a tile, at row `r`: the sum of the row's 6400 entries. -/
theorem lane_sum (tile : FVec Ideal S512x6400 .f32) (hφ : FKind.Formats FTy.f32)
    (hacc : (0x00000000#32 : BitVec FTy.f32.bits) = FKind.add.neutral FTy.f32 hφ) (r : Fin 512) :
    multiReduction (F := Ideal) .add [1] S512 tile 0x00000000#32 Facts₀.reduces_S512x6400_S512 hφ hacc (ix1 r)
      = ∑ l : Fin 6400, tile (ix2 r l) :=
  (Ideal.multiReduction_add_single tile 0x00000000#32 Facts₀.reduces_S512x6400_S512 hφ hacc (ix1 r)).trans
    (Finset.sum_congr rfl fun l _ => congrArg tile (funext fun a => by
      match a with
      | ⟨0, _⟩ => rfl
      | ⟨1, _⟩ => rfl))

/-- The accumulate step at entry `(r, 0)`: the old entry plus the tile's row sum. -/
theorem accumulate_apply (acc : FVec Ideal S512x1 .f32) (tile : FVec Ideal S512x6400 .f32) (r : Fin 512) (u : Fin 1) :
    k0_pay2 (F := Ideal) acc tile (ix2 r u) = acc (ix2 r u) + ∑ l : Fin 6400, tile (ix2 r l) := by
  unfold k0_pay2
  refine (congrFun (shapeCast_self _ _) (ix2 r u)).trans ?_
  refine (addf_apply _ _ _).trans ?_
  refine congrArg (acc (ix2 r u) + ·) ?_
  refine (Cert.LibColumn.shapeCast_a_a1_apply _ _ r u).trans ?_
  exact lane_sum tile _ _ r

/-- The reset column is zero at every entry. -/
theorem reset_apply (y : S512x1.Idx) : k0_pay1 (F := Ideal) y = 0 := by
  unfold k0_pay1
  refine (congrFun (shapeCast_self _ _) y).trans ?_
  exact Ideal.ofBits_zero_f32

end Cert.KernelIdeal.Payload

end
-- ==== Proof.Spec.lean ====
/-
  The mathematics of the masked row-sum, over the extended reals.

  The data are an array `x` of shape [4096, 32000] and, per row `i`, a mask value `mk i` that is 0 or 1. One
  program sums every entry of `x` times its row's mask; the other first sums each row — five tiles of 6400 columns, one
  after the other — and then sums the row sums times the masks. The two agree because

    * a row's sum over its 32000 columns is the sum, over the five tiles, of the tiles' sums (a re-indexing of a finite
      sum: addition of extended reals is commutative and associative);
    * multiplying a sum by 0 or by 1 multiplies every term: `(∑ f) · 1 = ∑ (f · 1)` and `(∑ f) · 0 = 0 = ∑ (f · 0)`, with
      no condition on the terms (an infinite term times 0 is 0 in the extended reals), so finiteness of `x` is never used;
    * a sum over the index pairs `(i, k)` is the sum over `i` of the sums over `k`.
-/
import Idealize.ShloMosaic.PureOps.Ideal
import Idealize.ShloMosaic.Lib.ValueIdx
import Mathlib.Algebra.BigOperators.Fin
import Mathlib.Logic.Equiv.Fin.Basic

noncomputable section

namespace Cert.Spec

open Idealize.ShloMosaic Idealize.ShloMosaic.ValueIdx
open scoped BigOperators

/-- Column `l` of tile `j`: column `6400 j + l` of the array (taken modulo 32000, so that it is a column for every `j`;
    for `j < 5` nothing is reduced). -/
abbrev tileCol (j : ℕ) (l : Fin 6400) : Fin 32000 := ⟨(j * 6400 + l.val) % 32000, Nat.mod_lt _ (by norm_num)⟩

/-- Row `r` of row block `a`: row `512 a + r` of the array (modulo 4096; for `a < 8` nothing is reduced). -/
abbrev blockRow (a : ℕ) (r : Fin 512) : Fin 4096 := ⟨(a * 512 + r.val) % 4096, Nat.mod_lt _ (by norm_num)⟩

/-- A sum over the 32000 columns is the sum over the five tiles of the sums over a tile's 6400 columns. -/
theorem sum_tiles {M : Type*} [AddCommMonoid M] (f : Fin 32000 → M) :
    ∑ k, f k = ∑ j ∈ Finset.range 5, ∑ l : Fin 6400, f (tileCol j l) := by
  rw [Finset.sum_range fun j => ∑ l : Fin 6400, f (tileCol j l)]
  rw [← Equiv.sum_comp (finProdFinEquiv : Fin 5 × Fin 6400 ≃ Fin 32000) f, Fintype.sum_prod_type]
  refine Finset.sum_congr rfl fun j _ => Finset.sum_congr rfl fun l _ => congrArg f (Fin.ext ?_)
  show l.val + 6400 * j.val = (j.val * 6400 + l.val) % 32000
  have := j.isLt; have := l.isLt; omega

/-- A sum times 0 or 1 is the sum of the terms times it. -/
theorem sum_mul_bit {ι : Type*} [Fintype ι] (f : ι → EReal) (c : EReal) (hc : c = 0 ∨ c = 1) :
    (∑ k, f k) * c = ∑ k, f k * c := by
  rcases hc with rfl | rfl
  · simp only [mul_zero, Finset.sum_const_zero]
  · simp only [mul_one]

/-- One bit read as an unsigned integer, as a real, as an extended real, is 0 or 1. -/
theorem bit_cases (b : BitVec 1) : ((b.toNat : ℝ) : EReal) = 0 ∨ ((b.toNat : ℝ) : EReal) = 1 := by
  have h : b = 0#1 ∨ b = 1#1 := by revert b; decide
  rcases h with rfl | rfl
  · left; simp
  · right; simp

/-- The sum of a row of `x`, kept as a column: entry `(i, 0)` is `∑ₖ x (i, k)`. -/
def rowSums (x : (⟨2, ![4096, 32000]⟩ : Shape).Idx → EReal) : (⟨2, ![4096, 1]⟩ : Shape).Idx → EReal :=
  fun i => ∑ k : Fin 32000, x (ix2 (i 0) k)

/-- THE LAW that joins the two programs: every entry times its row's mask, summed over the whole array, is the row sums
    times the masks, summed over the rows. -/
theorem masked_sum (x : (⟨2, ![4096, 32000]⟩ : Shape).Idx → EReal) (mk : Fin 4096 → EReal)
    (hmk : ∀ i, mk i = 0 ∨ mk i = 1) :
    ∑ p : (⟨2, ![4096, 32000]⟩ : Shape).Idx, x p * mk (p 0)
      = ∑ i : Fin 4096, (∑ k : Fin 32000, x (ix2 i k)) * mk i := by
  rw [sum_idx2]
  refine Finset.sum_congr rfl fun i _ => ?_
  rw [sum_mul_bit _ _ (hmk i)]

end Cert.Spec

end
-- ==== Proof.Accumulate.lean ====
/-
  What the scratch accumulator holds after each grid point, at the ideal values.

  Point `t` reads the tile of rows `512 (t / 5) + r` and columns `6400 (t % 5) + l` of the argument array. By induction
  on the point, after point `t` entry `(r, 0)` of the accumulator is the sum of the first `t % 5 + 1` tiles of row
  `512 (t / 5) + r`: the first tile of a row block starts from the zero column, every other tile adds its row sums to
  what the point before left. After the fifth tile that is the sum of the whole row.
-/
import proofs.«182032_j755914244560_2_alg».proof.Proof.Steps
import proofs.«182032_j755914244560_2_alg».proof.Proof.Payload
import proofs.«182032_j755914244560_2_alg».proof.Proof.Spec

set_option maxRecDepth 16384

noncomputable section

namespace Cert.KernelIdeal.Accumulate

open Idealize.ShloMosaic Idealize.ShloMosaic.TcCoe Idealize.SL.Sem Idealize.ShloMosaic.ValueIdx
open Cert.KernelIdeal Cert.KernelIdeal.Gen Cert.Spec

variable (m : (ℓ : Loc nD τ sig) → Buf (Elt Ideal) ℓ)

/-- The argument array as the region finds it, typed as an array of extended reals. -/
abbrev X (c : Dev nD) : FVec Ideal S4096x32000 .f32 := V m c main_arg0

/-- The tile's index map at point `t`: row block `t / 5`, column tile `t % 5` — decided over the 40 points. -/
theorem index_facts : ∀ t : Fin cfg0.N, win0_0.index t 0 = t.val / 5 ∧ win0_0.index t 1 = t.val % 5 :=
  (by decide +kernel : ∀ t : Fin grid0.N, win0_0.index t 0 = t.val / 5 ∧ win0_0.index t 1 = t.val % 5)

/-- Entry `(r, l)` of the tile at point `t` is the array's entry at row `512 (t / 5) + r`, column `6400 (t % 5) + l`. -/
theorem tile_apply (c : Dev nD) (t : Fin cfg0.N) (r : Fin 512) (l : Fin 6400) :
    (iblk m c 0 t : FVec Ideal S512x6400 .f32) (ix2 r l)
      = X m c (ix2 (blockRow (t.val / 5) r) (tileCol (t.val % 5) l)) := by
  have hN : t.val < 40 := lt_of_lt_of_eq t.isLt (show cfg0.N = 40 from N_0)
  obtain ⟨i0, i1⟩ := index_facts t
  unfold iblk
  rw [View.read_apply]
  show V m c main_arg0 _ = V m c main_arg0 _
  congr 1
  funext a
  apply Fin.ext
  match a with
  | ⟨0, _⟩ =>
    show win0_0.index t 0 * 512 + 1 * r.val = (t.val / 5 * 512 + r.val) % 4096
    rw [i0]; have := r.isLt; omega
  | ⟨1, _⟩ =>
    show win0_0.index t 1 * 6400 + 1 * l.val = (t.val % 5 * 6400 + l.val) % 32000
    rw [i1]; have := l.isLt; omega

/-- The sum of the first `n` column tiles of row `r` of row block `a`. -/
def firstTiles (c : Dev nD) (a n : ℕ) (r : Fin 512) : EReal :=
  ∑ j ∈ Finset.range n, ∑ l : Fin 6400, X m c (ix2 (blockRow a r) (tileCol j l))

/-- One accumulate step at point `t`: the old entry plus the row's sum over the point's column tile. -/
theorem step_apply (c : Dev nD) (t : Fin cfg0.N) (acc : FVec Ideal S512x1 .f32) (r : Fin 512) (u : Fin 1) :
    k0_pay2 (F := Ideal) acc (iblk m c 0 t) (ix2 r u)
      = acc (ix2 r u) + ∑ l : Fin 6400, X m c (ix2 (blockRow (t.val / 5) r) (tileCol (t.val % 5) l)) :=
  (Payload.accumulate_apply acc (iblk m c 0 t : FVec Ideal S512x6400 .f32) r u).trans
    (congrArg (acc (ix2 r u) + ·) (Finset.sum_congr rfl fun l _ => tile_apply m c t r l))

/-- THE INVARIANT: after point `n` the accumulator holds the sums of the first `n % 5 + 1` tiles of its row block's rows. -/
theorem scratch_eq (c : Dev nD) : ∀ (n : ℕ) (hn : n < cfg0.N) (r : Fin 512) (u : Fin 1),
    (outsAt0 m c n hn).2 (ix2 r u) = firstTiles m c (n / 5) (n % 5 + 1) r
  | 0, hn, r, u => by
    rw [Steps.scratch_first m c ⟨0, hn⟩ rfl]
    refine (step_apply m c ⟨0, hn⟩ _ r u).trans ?_
    rw [Payload.reset_apply, zero_add]
    unfold firstTiles
    exact (Finset.sum_range_one fun j => ∑ l : Fin 6400, X m c (ix2 (blockRow (0 / 5) r) (tileCol j l))).symm
  | n + 1, hn, r, u => by
    have hN : n + 1 < 40 := lt_of_lt_of_eq hn (show cfg0.N = 40 from N_0)
    by_cases h0 : (n + 1) % 5 = 0
    · rw [Steps.scratch_first m c ⟨n + 1, hn⟩ h0]
      refine (step_apply m c ⟨n + 1, hn⟩ _ r u).trans ?_
      rw [Payload.reset_apply, zero_add]
      unfold firstTiles
      show ∑ l : Fin 6400, X m c (ix2 (blockRow ((n + 1) / 5) r) (tileCol ((n + 1) % 5) l))
        = ∑ j ∈ Finset.range ((n + 1) % 5 + 1), ∑ l : Fin 6400, X m c (ix2 (blockRow ((n + 1) / 5) r) (tileCol j l))
      rw [h0]
      exact (Finset.sum_range_one fun j => ∑ l : Fin 6400, X m c (ix2 (blockRow ((n + 1) / 5) r) (tileCol j l))).symm
    · rw [Steps.scratch_next m c ⟨n + 1, hn⟩ h0]
      refine (step_apply m c ⟨n + 1, hn⟩ _ r u).trans ?_
      show (outsAt0 m c n _).2 (ix2 r u) + _ = _
      rw [scratch_eq c n _ r u]
      unfold firstTiles
      have e1 : (n + 1) / 5 = n / 5 := by omega
      have e2 : (n + 1) % 5 = n % 5 + 1 := by omega
      show _ + ∑ l : Fin 6400, X m c (ix2 (blockRow ((n + 1) / 5) r) (tileCol ((n + 1) % 5) l))
        = ∑ j ∈ Finset.range ((n + 1) % 5 + 1), ∑ l : Fin 6400, X m c (ix2 (blockRow ((n + 1) / 5) r) (tileCol j l))
      rw [e1, e2, Finset.sum_range_succ _ (n % 5 + 1)]

end Cert.KernelIdeal.Accumulate

end
-- ==== Proof.RowSums.lean ====
/-
  The array the kernel's region leaves: the row sums of the argument array, as a column.

  The output window writes a block back only after the last column tile of a row block (points `5 a + 4`): block `a`,
  rows `512 a` to `512 a + 511` of the column [4096, 1]. By then the accumulator — which the output block copies — holds
  the sum of all five tiles of each of those rows, which is the sum of the whole row. The eight blocks tile the column
  (row `i` is in block `i / 512`), so the array ends holding the row sums everywhere.
-/
import proofs.«182032_j755914244560_2_alg».proof.Proof.Accumulate

set_option maxRecDepth 16384

noncomputable section

namespace Cert.KernelIdeal.RowSums

open Idealize.ShloMosaic Idealize.ShloMosaic.TcCoe Idealize.SL.Sem Idealize.ShloMosaic.ValueIdx
open Idealize.ShloMosaic.Pipeline (Dat)
open Cert.KernelIdeal Cert.KernelIdeal.Gen Cert.Spec Cert.KernelIdeal.Accumulate

variable (m : (ℓ : Loc nD τ sig) → Buf (Elt Ideal) ℓ)

/-- The output window's index map at point `t`: row block `t / 5`, the one column block — decided over the 40 points. -/
theorem out_index_facts : ∀ t : Fin cfg0.N, win0_1.index t 0 = t.val / 5 ∧ win0_1.index t 1 = 0 :=
  (by decide +kernel : ∀ t : Fin grid0.N, win0_1.index t 0 = t.val / 5 ∧ win0_1.index t 1 = 0)

/-- Entry `(r, u)` of the block the output window moves at point `t`, of ANY column `G`, is `G` at row `512 (t / 5) + r`. -/
theorem out_block_apply (G : FVec Ideal S4096x1 .f32) (t : Fin cfg0.N) (r : Fin 512) (u : Fin 1) :
    ((cfg0.win 1).blk t).view.read (Elt Ideal) G (ix2 r u) = G (ix2 (blockRow (t.val / 5) r) u) := by
  have hN : t.val < 40 := lt_of_lt_of_eq t.isLt (show cfg0.N = 40 from N_0)
  obtain ⟨o0, o1⟩ := out_index_facts t
  rw [View.read_apply]
  show G _ = G _
  congr 1
  funext a
  apply Fin.ext
  match a with
  | ⟨0, _⟩ =>
    show win0_1.index t 0 * 512 + 1 * r.val = (t.val / 5 * 512 + r.val) % 4096
    rw [o0]; have := r.isLt; omega
  | ⟨1, _⟩ =>
    show win0_1.index t 1 * 1 + 1 * u.val = u.val
    rw [o1]; omega

/-- The row sums of the argument array as the region finds it. -/
abbrev result (c : Dev nD) : FVec Ideal S4096x1 .f32 := rowSums (X m c)

/-- WHAT A WRITE-BACK POINT WRITES is its block of the row sums. -/
theorem flushed_eq (c : Dev nD) (t : Fin cfg0.N) (hf : (cfg0.win 1).flush t = true) :
    (dats m 0 c).flushed 1 t = ((cfg0.win 1).blk t).view.read (Elt Ideal) (result m c) := by
  have h4 : t.val % 5 = 4 := (flush0_1 t).mp hf
  have hN : t.val < 40 := lt_of_lt_of_eq t.isLt (show cfg0.N = 40 from N_0)
  obtain ⟨o0, o1⟩ := out_index_facts t
  show (cfg0.win 1).cut (grid0.coords t) ((dats m 0 c).after 1 t) = _
  rw [after0_1, Steps.out_last m c t h4]
  funext y
  obtain ⟨r, u, rfl⟩ : ∃ (r : Fin 512) (u : Fin 1), y = ix2 r u := ⟨y 0, y 1, eq_ix2 y⟩
  refine Eq.trans ?_ (out_block_apply (result m c) t r u).symm
  show (outsAt0 m c t.val t.isLt).2 (ix2 r u) = _
  rw [scratch_eq m c t.val t.isLt r u]
  unfold result rowSums firstTiles
  show _ = ∑ k : Fin 32000, X m c (ix2 (blockRow (t.val / 5) r) k)
  rw [sum_tiles, h4]

/-- Every row of the column is in the block some write-back point writes: row `i` in block `i / 512`, written at point
    `5 (i / 512) + 4`. -/
theorem cover (i : S4096x1.Idx) :
    ∃ t : Fin cfg0.N, (cfg0.win 1).flush t = true ∧ i ∈ ((cfg0.win 1).blk t).view.set := by
  have h0 : (i 0).val < 4096 := (i 0).isLt
  have h1 : (i 1).val < 1 := (i 1).isLt
  have hN : cfg0.N = 40 := N_0
  let t : Fin cfg0.N := ⟨(i 0).val / 512 * 5 + 4, by rw [hN]; omega⟩
  have ht : t.val = (i 0).val / 512 * 5 + 4 := rfl
  obtain ⟨o0, o1⟩ := out_index_facts t
  refine ⟨t, (flush0_1 t).mpr (by rw [ht]; omega), ?_⟩
  show i ∈ ((View.whole main_v0).slice (win0_1.rect t)).set
  rw [View.set_slice_whole, Rect.mem_set_unit]
  intro a
  match a with
  | ⟨0, _⟩ =>
    show win0_1.index t 0 * 512 ≤ (i 0).val ∧ (i 0).val < win0_1.index t 0 * 512 + 512
    rw [o0, ht]; omega
  | ⟨1, _⟩ =>
    show win0_1.index t 1 * 1 ≤ (i 1).val ∧ (i 1).val < win0_1.index t 1 * 1 + 1
    rw [o1]; omega

/-- THE ARRAY after the region: the row sums. -/
theorem final (c : Dev nD) : (dats m 0 c).arrAt 1 cfg0.N = result m c :=
  (dats m 0 c).arrAt_eq_of_cover 1 (result m c) (flushed_eq m c) (cover)

end Cert.KernelIdeal.RowSums

end
-- ==== Proof.TailTerm.lean ====
/-
  The host operations after the region, as one function of what they read.

  After the region the kernel program re-lays the row-sum column `R` as a vector, multiplies by the row masks (1 where the
  row's target `t` is not 0), sums from zero and negates; gathers one entry of `x` per row at the row's target, multiplies
  by the masks, sums and negates; divides the first by 32000, scales the two by the constants and adds. `hostTail R x t` is
  that composition, operation for operation, at any reading of the floats.
-/
import proofs.«182032_j755914244560_2_alg».proof.Proof.Gen.KernelIdeal
import Idealize.ShloMosaic.PureOps.Ideal

noncomputable section

namespace Cert.KernelIdeal.Result

open Idealize.ShloMosaic
open Cert.KernelIdeal Cert.KernelIdeal.Gen

variable {F : FTy → Type} [FloatOps F]

/-- The first sum: the column re-laid as a vector, times the masks, summed from zero. -/
def firstSum (R : FVec F S4096x1 .f32) (x1 : IVec S4096 32) : FVec F S_ .f32 :=
  Host.reduceAdd (F := F) (mulf (shapeCast _ R shapeCasts_S4096x1_S4096) (uitofp .f32 (cmpi .ne x1 (broadcastInDim S4096 ![] bcast_S_S4096 (constantI S_ 32 0#32))))) (constant (F := F) S_ .f32 0x00000000#32) reducesTo_S4096_S_d0 h_S_

/-- The gathered half, scaled: the entries at the rows' targets times the masks, summed from zero, negated, times the
    second constant. -/
def gatheredHalf (x0 : FVec F S4096x32000 .f32) (x1 : IVec S4096 32) : FVec F S_ .f32 :=
  (mulf (constant (F := F) S_ .f32 0x3F666666#32) (Host.negf (F := F) (Host.reduceAdd (F := F) (mulf (shapeCast _ (select (Host.reduce IntOp.andi (andi (cmpi .sge (shapeCast _ (select (cmpi .slt (broadcastInDim S4096x1 ![0] bcast_S4096_S4096x1_0 x1) (broadcastInDim S4096x1 ![] bcast_S_S4096x1 (constantI S_ 32 0#32))) (addi (broadcastInDim S4096x1 ![0] bcast_S4096_S4096x1_0 x1) (broadcastInDim S4096x1 ![] bcast_S_S4096x1 (constantI S_ 32 32000#32))) (broadcastInDim S4096x1 ![0] bcast_S4096_S4096x1_0 x1)) shapeCasts_S4096x1_S4096x1x1) (broadcastInDim S4096x1x1 ![] bcast_S_S4096x1x1 (constantI S_ 32 0#32))) (cmpi .sle (shapeCast _ (select (cmpi .slt (broadcastInDim S4096x1 ![0] bcast_S4096_S4096x1_0 x1) (broadcastInDim S4096x1 ![] bcast_S_S4096x1 (constantI S_ 32 0#32))) (addi (broadcastInDim S4096x1 ![0] bcast_S4096_S4096x1_0 x1) (broadcastInDim S4096x1 ![] bcast_S_S4096x1 (constantI S_ 32 32000#32))) (broadcastInDim S4096x1 ![0] bcast_S4096_S4096x1_0 x1)) shapeCasts_S4096x1_S4096x1x1) (broadcastInDim S4096x1x1 ![0, 1, 2] bcast_S1x1x1_S4096x1x1_0_1_2 (broadcastInDim S1x1x1 ![2] bcast_S1_S1x1x1_2 (constantI S1 32 31999#32))))) (constantI S_ 1 1#1) reducesTo_S4096x1x1_S4096x1_d2 h_S_) (Host.gather gather_S4096x32000_S4096x1x1_S4096x1_n_1_0_0_1_2_11 x0 (shapeCast _ (select (cmpi .slt (broadcastInDim S4096x1 ![0] bcast_S4096_S4096x1_0 x1) (broadcastInDim S4096x1 ![] bcast_S_S4096x1 (constantI S_ 32 0#32))) (addi (broadcastInDim S4096x1 ![0] bcast_S4096_S4096x1_0 x1) (broadcastInDim S4096x1 ![] bcast_S_S4096x1 (constantI S_ 32 32000#32))) (broadcastInDim S4096x1 ![0] bcast_S4096_S4096x1_0 x1)) shapeCasts_S4096x1_S4096x1x1)) (broadcastInDim S4096x1 ![] bcast_S_S4096x1 (constant (F := F) S_ .f32 0x7FC00000#32))) shapeCasts_S4096x1_S4096) (uitofp .f32 (cmpi .ne x1 (broadcastInDim S4096 ![] bcast_S_S4096 (constantI S_ 32 0#32))))) (constant (F := F) S_ .f32 0x00000000#32) reducesTo_S4096_S_d0 h_S_)))

/-- The whole tail. -/
def hostTail (R : FVec F S4096x1 .f32) (x0 : FVec F S4096x32000 .f32) (x1 : IVec S4096 32) : FVec F S_ .f32 :=
  addf (mulf (constant (F := F) S_ .f32 0x3DCCCCCD#32) (Host.divf (F := F) (Host.negf (F := F) (firstSum R x1)) (constant (F := F) S_ .f32 0x46FA0000#32))) (gatheredHalf x0 x1)

end Cert.KernelIdeal.Result

end
-- ==== Proof.Bridge.lean ====
/-
  Where the two programs meet.

  From the negation of the first sum on, both programs run the same operations on the same values: the gathered entry
  per row times the mask, summed, negated; the first sum negated and divided by 32000; the two scaled by the same two
  constants and added. `finish L x t` is that common tail as a function of the first sum `L` (and of the arguments, for
  the gathered half, which is never opened). The reference's result is `finish` of its own first sum — every entry times
  its row's mask, summed over the whole array. The kernel's is `finish` of the row sums times the masks, summed over the
  rows. The mask is `1` where the row's target is not 0 and `0` where it is, so the two first sums are equal
  (`Cert.Spec.masked_sum`), and with them the results.
-/
import proofs.«182032_j755914244560_2_alg».proof.Proof.Spec
import proofs.«182032_j755914244560_2_alg».proof.Proof.Gen.ReferenceIdeal.Read
import Idealize.ShloMosaic.Lib.Pipeline.Value
import Idealize.ShloMosaic.Lib.ValueIdx
import Idealize.ShloMosaic.PureOps.Ideal.Laws

noncomputable section

namespace Cert.Bridge

open Idealize.ShloMosaic Idealize.ShloMosaic.ValueIdx
open Cert.ReferenceIdeal Cert.ReferenceIdeal.Gen Cert.ReferenceIdeal.Read Cert.Spec
open scoped BigOperators

/-- A one-axis index is its coordinate, so a sum over the indices is the sum over the coordinate. -/
def idxEquiv1 {n : ℕ} : (⟨1, ![n]⟩ : Shape).Idx ≃ Fin n where
  toFun i := i 0
  invFun a := ix1 a
  left_inv i := (eq_ix1 i).symm
  right_inv _ := rfl

theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- The kernel's first sum: the column `R` re-laid as a vector, times the row masks, summed from zero. -/
def kernelLoss (R : FVec Ideal S4096x1 .f32) (x1 : IVec S4096 32) : FVec Ideal S_ .f32 :=
  Host.reduceAdd (F := Ideal) (mulf (shapeCast S4096 R shapeCasts_S4096x1_S4096) (val_main_v2 (F := Ideal) x1))
    (constant (F := Ideal) S_ .f32 0x00000000#32) reducesTo_S4096_S_d0 h_S_

/-- The common tail, from the first sum `L` to the result. -/
def finish (L : FVec Ideal S_ .f32) (x0 : FVec Ideal S4096x32000 .f32)
    (x1 : IVec S4096 32) : FVec Ideal S_ .f32 :=
  addf (mulf (val_main_cst_2 (F := Ideal)) (Host.divf (F := Ideal) (Host.negf (F := Ideal) L) (val_main_cst_1 (F := Ideal))))
    (val_main_v16 (F := Ideal) x0 x1)

/-- The reference's result is the common tail of its own first sum. -/
theorem reference_eq (x0 : FVec Ideal S4096x32000 .f32) (x1 : IVec S4096 32) :
    val_main_v17 (F := Ideal) x0 x1 = finish (val_main_v6 (F := Ideal) x0 x1) x0 x1 := rfl

/-- The kernel's first sum, read: zero plus the sum over the rows. -/
theorem kernelLoss_apply (R : FVec Ideal S4096x1 .f32) (x1 : IVec S4096 32) (i : S_.Idx) :
    kernelLoss R x1 i = (constant (F := Ideal) S_ .f32 0x00000000#32) (Shape.Idx.first h_S_)
      + ∑ j : S4096.Idx, (mulf (shapeCast S4096 R shapeCasts_S4096x1_S4096) (val_main_v2 (F := Ideal) x1)) j := by
  unfold kernelLoss
  generalize (mulf (shapeCast S4096 R shapeCasts_S4096x1_S4096) (val_main_v2 (F := Ideal) x1)) = y0
  simp only [Host.reduceAdd, Ideal.hostReduceAdd_def]
  exact Ideal.hostReduceAdd_total reducesTo_S4096_S_d0 (fun b => b.elim0) y0 _ i

/-- THE TWO FIRST SUMS ARE EQUAL: the row sums times the masks over the rows, and every entry times its row's mask over the
    whole array. -/
theorem loss_eq (x0 : FVec Ideal S4096x32000 .f32) (x1 : IVec S4096 32) :
    kernelLoss (rowSums x0) x1 = val_main_v6 (F := Ideal) x0 x1 := by
  funext i
  rw [kernelLoss_apply, val_main_v6_apply]
  refine congrArg₂ (· + ·) rfl ?_
  have hidx : ∀ p : S4096x32000.Idx, idx_main_v3 (idx_main_v4 p) = ix1 (p 0) := fun p => funext fun a => by
    match a with
    | ⟨0, _⟩ => rfl
  have hR : ∀ p : S4096x32000.Idx,
      (val_main_v5 (F := Ideal) x0 x1 : FVec Ideal S4096x32000 .f32) p
        = x0 p * (val_main_v2 (F := Ideal) x1 : FVec Ideal S4096 .f32) (ix1 (p 0)) := fun p => by
    rw [val_main_v5_apply, val_main_v4_apply, val_main_v3_apply, hidx]
    rfl
  have hL : ∀ a : Fin 4096,
      (mulf (F := Ideal) (shapeCast S4096 (rowSums x0) shapeCasts_S4096x1_S4096) (val_main_v2 (F := Ideal) x1) : FVec Ideal S4096 .f32) (ix1 a)
        = (∑ k : Fin 32000, x0 (ix2 a k)) * (val_main_v2 (F := Ideal) x1 : FVec Ideal S4096 .f32) (ix1 a) := fun a => by
    rw [mulf_apply, shapeCast_apply (rowSums x0) shapeCasts_S4096x1_S4096 (ix1 a) (ix2 a (0 : Fin 1)) (by
      rw [Shape.rowMajor_val_two, Shape.rowMajor_val_one]
      show a.val * 1 + 0 = a.val
      omega)]
    rfl
  rw [sum_idx1, Finset.sum_congr rfl (fun a _ => hL a), Finset.sum_congr rfl (fun p _ => hR p)]
  exact (masked_sum x0 (fun a => (val_main_v2 (F := Ideal) x1 : FVec Ideal S4096 .f32) (ix1 a)) (fun a => bit_cases _)).symm

/-- So the common tail of the kernel's first sum is the reference's result. -/
theorem kernel_eq_reference (x0 : FVec Ideal S4096x32000 .f32) (x1 : IVec S4096 32) :
    finish (kernelLoss (rowSums x0) x1) x0 x1 = val_main_v17 (F := Ideal) x0 x1 :=
  (congrArg (fun L => finish L x0 x1) (loss_eq x0 x1)).trans (reference_eq x0 x1).symm

end Cert.Bridge

end
-- ==== Proof.TailBridge.lean ====
/-
  The kernel program's tail is the common tail of the kernel's first sum.

  Both are the same composition of the same operations on the same values; the two spellings differ only in which
  program's shape records and side-condition proofs they cite, and those agree.
-/
import proofs.«182032_j755914244560_2_alg».proof.Proof.TailTerm
import proofs.«182032_j755914244560_2_alg».proof.Proof.Bridge

noncomputable section

namespace Cert.KernelIdeal.Result

open Idealize.ShloMosaic

/-- The kernel's first sum, in either spelling. -/
theorem firstSum_eq (R : FVec Ideal S4096x1 .f32) (x1 : IVec S4096 32) :
    firstSum (F := Ideal) R x1 = Cert.Bridge.kernelLoss R x1 := rfl

/-- The gathered half, in either spelling. -/
theorem gatheredHalf_eq (x0 : FVec Ideal S4096x32000 .f32) (x1 : IVec S4096 32) :
    gatheredHalf (F := Ideal) x0 x1 = Cert.ReferenceIdeal.Read.val_main_v16 (F := Ideal) x0 x1 := rfl

/-- The whole tail. -/
theorem hostTail_eq (R : FVec Ideal S4096x1 .f32) (x0 : FVec Ideal S4096x32000 .f32) (x1 : IVec S4096 32) :
    hostTail (F := Ideal) R x0 x1 = Cert.Bridge.finish (Cert.Bridge.kernelLoss R x1) x0 x1 := by
  unfold hostTail Cert.Bridge.finish
  rw [firstSum_eq, gatheredHalf_eq]
  rfl

end Cert.KernelIdeal.Result

end
-- ==== Proof.KernelRun.lean ====
/-
  The kernel program's run, read to its result.

  After the region the row-sum column holds the row sums of the first argument (`RowSums.final`) and both arguments are
  as launched. The host operations after the region — re-lay the column as a vector, times the masks, sum, negate; the
  gathered entries times the masks, sum, negate; divide, scale, add — then leave in the result buffer the common tail
  (`Cert.Bridge.finish`) of the kernel's first sum, which is the reference's result term (`Cert.Bridge.kernel_eq_reference`).
-/
import proofs.«182032_j755914244560_2_alg».proof.Proof.RowSums
import proofs.«182032_j755914244560_2_alg».proof.Proof.TailBridge
import Idealize.ShloMosaic.Lib.StableHlo.Run

set_option maxRecDepth 16384

noncomputable section

namespace Cert.KernelIdeal.Result

open Idealize.ShloMosaic Idealize.ShloMosaic.TcCoe Idealize.SL.Sem Idealize.ShloMosaic.StableHlo
open Cert.KernelIdeal Cert.KernelIdeal.Gen

section AnyReading

variable {F : FTy → Type} [FloatOps F]
variable (m : (ℓ : Loc nD τ sig) → Buf (Elt F) ℓ)

/-- The core's buffer contents when the region is left: the region's arrays as the write-backs leave them, every other
    buffer as launched. -/
abbrev atExit (c : Dev nD) : Valuation τ sig (Elt F) :=
  Pipeline.withArrays (cfgs 0).spec c (V0 m c) fun w => (dats m 0 c).arrAt w (cfgs 0).N

/-- The first argument at the region's exit: as launched (an input window's array is never written). -/
theorem exit_arg0 (c : Dev nD) : atExit m c (Proc.devRef .tc main_arg0) = m ((c : Thread nD τ).loc main_arg0) :=
  (Pipeline.withArrays_arr spec0 launch0.win.arr_inj c _ _ 0).trans
    (((dats m 0 c).arrAt_in 0 rfl _).trans ((A_eq m c 0).trans (V_main_arg0 m c)))

/-- The second argument at the region's exit: as launched (no window stages it). -/
theorem exit_arg1 (c : Dev nD) : atExit m c (Proc.devRef .tc main_arg1) = m ((c : Thread nD τ).loc main_arg1) :=
  (Pipeline.withArrays_of_ne _ c (V0 m c) _ main_arg1 (by exact (by decide : ∀ w, Pipeline.arrRef spec0 w ≠ main_arg1))).trans
    (V_main_arg1 m c)

set_option maxHeartbeats 1000000 in
/-- From ANY buffer contents `W`, the host operations after the region leave in the result buffer their composition
    applied to `W`'s row-sum column and two arguments — at any reading of the floats: nothing here depends on what the
    operations compute, nor on where `W` came from. -/
theorem tail_of (W : Valuation τ sig (Elt F)) :
    StableHlo.after (List.flatten [hostOps1, hostOps1_1, hostOps1_2]) W (Proc.devRef .tc main_v17)
      = hostTail (W (Proc.devRef .tc main_v0)) (W (Proc.devRef .tc main_arg0)) (W (Proc.devRef .tc main_arg1)) := by
  simp only [hostOps1, hostOps1_1, hostOps1_2, List.flatten_cons, List.flatten_nil, List.append_nil, List.cons_append,
    List.nil_append]
  after_results_simp
  rfl

/-- In particular from what the region left. -/
theorem tail_eq (c : Dev nD) :
    Pipeline.afterTail₀ cfgs (dats m) 0 (V0 m) [hostOps1, hostOps1_1, hostOps1_2] c main_v17
      = hostTail (atExit m c (Proc.devRef .tc main_v0)) (atExit m c (Proc.devRef .tc main_arg0))
          (atExit m c (Proc.devRef .tc main_arg1)) :=
  tail_of (atExit m c)

end AnyReading

variable (m : (ℓ : Loc nD τ sig) → Buf (Elt Ideal) ℓ) (ρ : Dev nD → PrngReg)

/-- The row-sum column at the region's exit, at the ideal values: the row sums. -/
theorem exit_rows (c : Dev nD) : atExit m c (Proc.devRef .tc main_v0) = RowSums.result m c :=
  (Pipeline.withArrays_arr spec0 launch0.win.arr_inj c _ _ 1).trans (RowSums.final m c)

/-- THE RUN: every weakly fair execution of the kernel program terminates with the result buffer at the reference's result
    term of the launch arguments, and the arguments unchanged. -/
theorem run : θ_run defs (onTc (τ := τ) (main (F := Ideal))) ⟨m, fun _ => 0, ρ⟩ fun r => ∀ c : Dev nD,
      r.2.mem ((c.tc : Thread nD τ).loc main_v17)
        = Cert.ReferenceIdeal.Read.val_main_v17 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v17 (Pipeline.mem_restRefs_of main_v17 (by decide) (by decide))).trans ((tail_eq m c).trans (by
        rw [exit_rows, exit_arg0, exit_arg1, hostTail_eq]
        exact Cert.Bridge.kernel_eq_reference _ _)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Result

end
-- ==== Proof.lean ====
/-
  A label-smoothing loss: the masked sum of all entries of `x` [4096, 32000] ("smooth" term) and the masked sum of one
  gathered entry per row ("nll" term), combined as `0.1 · (−smooth / 32000) + 0.9 · (−nll)`. The row mask is 1 where the
  row's target is not the padding index 0, else 0.

  The reference multiplies every entry by its row's mask and sums the whole array. The kernel sums each row first — a grid
  of 8 row blocks × 5 column tiles, an accumulator column zeroed at a row block's first tile, a tile's row sums added at
  every tile, the column written out after the last — and multiplies the 4096 row sums by the masks afterwards. Over the
  extended reals the two first sums are equal: a row's sum is the sum of its five tiles' sums, and multiplying a sum by 0
  or 1 multiplies each term (no finiteness is needed: an infinite entry times 0 is 0). Everything after the first sum is
  the same operations on the same values in both programs, so the results are equal.

    frames         the two kernel programs by their generated frame runs; the reference by its generated run.
    preserves      the idealization rewrote nothing.
    algebraic      Pieces, Steps (one grid point in terms of the point before), Payload (the body's arithmetic at an
                   entry), Accumulate (the invariant: after point t the accumulator holds the first t % 5 + 1 tiles'
                   sums), RowSums (the region leaves the row sums), Spec and Bridge (the law; the common tail), KernelRun
                   (the kernel program's result is the reference's result term).
-/
import proofs.«182032_j755914244560_2_alg».proof.Defs
import proofs.«182032_j755914244560_2_alg».proof.Proof.Gen.Kernel
import proofs.«182032_j755914244560_2_alg».proof.Proof.Gen.Kernel.Skeleton
import proofs.«182032_j755914244560_2_alg».proof.Proof.Gen.Kernel.Launch
import proofs.«182032_j755914244560_2_alg».proof.Proof.Gen.Kernel.Points
import proofs.«182032_j755914244560_2_alg».proof.Proof.Gen.Kernel.Frame
import proofs.«182032_j755914244560_2_alg».proof.Proof.Gen.KernelIdeal
import proofs.«182032_j755914244560_2_alg».proof.Proof.Gen.KernelIdeal.Skeleton
import proofs.«182032_j755914244560_2_alg».proof.Proof.Gen.KernelIdeal.Launch
import proofs.«182032_j755914244560_2_alg».proof.Proof.Gen.KernelIdeal.Points
import proofs.«182032_j755914244560_2_alg».proof.Proof.Gen.KernelIdeal.Frame
import proofs.«182032_j755914244560_2_alg».proof.Proof.Gen.ReferenceIdeal
import proofs.«182032_j755914244560_2_alg».proof.Proof.Gen.ReferenceIdeal.Run
import proofs.«182032_j755914244560_2_alg».proof.Proof.Gen.ReferenceIdeal.Read
import proofs.«182032_j755914244560_2_alg».proof.Proof.Gen.Pre_finite_inputs
import proofs.«182032_j755914244560_2_alg».proof.Proof.KernelRun
import Idealize.ShloMosaic.Adequacy
import Idealize.ShloMosaic.Init

noncomputable section

namespace Cert.Proof

open Idealize.ShloMosaic Idealize.SL.Sem

/-- The word-level kernel program runs and keeps its arguments: its generated frame. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and keeps its arguments: its generated run, the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the reference's result term of those arguments: the
    kernel program by `Cert.KernelIdeal.Result.run`, the reference by its generated run. -/
theorem algebraic : Cert.algebraic_KernelIdeal_ReferenceIdeal := by
  intro m ρ m' ρ' _ hagree
  refine ⟨fun c => Cert.ReferenceIdeal.Read.val_main_v17 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
